-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S2x200000 : Shape := ⟨2, ![2, 200000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S256x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x800000 32) (main_arg2 : IVec S2x200000 32) (main_arg3 : FVec F S64x128 .f32) (main_arg4 : FVec F S128 .f32) (main_arg5 : FVec F S128x128 .f32) (main_arg6 : FVec F S128 .f32) (main_arg7 : FVec F S256x128 .f32) (main_arg8 : FVec F S128 .f32) (main_arg9 : FVec F S128x1 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S2x200000 : Shape := ⟨2, ![2, 200000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S850000x128 : Shape := ⟨2, ![850000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩
abbrev S5000x256 : Shape := ⟨2, ![5000, 256]⟩
abbrev S5000x1 : Shape := ⟨2, ![5000, 1]⟩

abbrev nBuf : Space → Nat
  | .hbm => 108
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S2x200000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x1, .f32⟩
  | .hbm, ⟨56, _⟩ => ⟨S850000x64, .f32⟩
  | .hbm, ⟨57, _⟩ => ⟨S850000x64, .f32⟩
  | .hbm, ⟨58, _⟩ => ⟨S_, .f32⟩
  | .hbm, ⟨59, _⟩ => ⟨S50000x64, .f32⟩
  | .hbm, ⟨60, _⟩ => ⟨S850000x1, .i32⟩
  | .hbm, ⟨61, _⟩ => ⟨S50000x64, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x1, .f32⟩
  | .hbm, ⟨74, _⟩ => ⟨S850000x128, .f32⟩
  | .hbm, ⟨75, _⟩ => ⟨S850000x128, .f32⟩
  | .hbm, ⟨76, _⟩ => ⟨S_, .f32⟩
  | .hbm, ⟨77, _⟩ => ⟨S50000x128, .f32⟩
  | .hbm, ⟨78, _⟩ => ⟨S850000x1, .i32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S1x200000, .i32⟩
  | .hbm, ⟨83, _⟩ => ⟨S200000, .i32⟩
  | .hbm, ⟨84, _⟩ => ⟨S1x200000, .i32⟩
  | .hbm, ⟨85, _⟩ => ⟨S200000, .i32⟩
  | .hbm, ⟨86, _⟩ => ⟨S_, .i32⟩
  | .hbm, ⟨87, _⟩ => ⟨S200000, .i32⟩
  | .hbm, ⟨88, _⟩ => ⟨S200000, .i1⟩
  | .hbm, ⟨89, _⟩ => ⟨S_, .i32⟩
  | .hbm, ⟨90, _⟩ => ⟨S200000, .i32⟩
  | .hbm, ⟨91, _⟩ => ⟨S200000, .i32⟩
  | .hbm, ⟨92, _⟩ => ⟨S200000, .i32⟩
  | .hbm, ⟨93, _⟩ => ⟨S200000x1, .i32⟩
  | .hbm, ⟨94, _⟩ => ⟨S200000x128, .f32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S200000x128, .f32⟩
  | .hbm, ⟨104, _⟩ => ⟨S200000x256, .f32⟩
  | .hbm, ⟨105, _⟩ => ⟨S1x128, .f32⟩
  | .hbm, ⟨106, _⟩ => ⟨S1x1, .f32⟩
  | .hbm, ⟨107, _⟩ => ⟨S200000x1, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x256, .f32⟩
  | .local _ .vmem, ⟨13, _⟩ => ⟨S5000x256, .f32⟩
  | .local _ .vmem, ⟨14, _⟩ => ⟨S256x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  shapeCasts_S1_S1x1 : S1.ShapeCasts S1x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S200000x256.size a
  hwx2_0 : ∀ i : grid2.Coords, EltTy.bits .f32 = 32 ∨ (Rect.block (s := S200000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S200000x1.size a
  hwx2_5 : ∀ i : grid2.Coords, EltTy.bits .f32 = 32 ∨ (Rect.block (s := S200000x1) S5000x1.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v40) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v55) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v76) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v79) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S2x200000 : Shape := ⟨2, ![2, 200000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x128 : Shape := ⟨2, ![50000, 128]⟩
abbrev S1x128 : Shape := ⟨2, ![1, 128]⟩
abbrev S850000x128 : Shape := ⟨2, ![850000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S50000x64, .f32⟩
  | 1 => ⟨S2x800000, .i32⟩
  | 2 => ⟨S2x200000, .i32⟩
  | 3 => ⟨S64x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x64, .f32⟩
  | 55 => ⟨S850000x1, .f32⟩
  | 56 => ⟨S850000x64, .f32⟩
  | 57 => ⟨S850000x64, .f32⟩
  | 58 => ⟨S_, .f32⟩
  | 59 => ⟨S50000x64, .f32⟩
  | 60 => ⟨S850000x1, .i32⟩
  | 61 => ⟨S50000x64, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .f32⟩
  | 70 => ⟨S850000, .f32⟩
  | 71 => ⟨S_, .f32⟩
  | 72 => ⟨S50000, .f32⟩
  | 73 => ⟨S850000x1, .i32⟩
  | 74 => ⟨S50000, .f32⟩
  | 75 => ⟨S_, .f32⟩
  | 76 => ⟨S50000, .f32⟩
  | 77 => ⟨S50000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x1, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x200000, .i32⟩
  | 118 => ⟨S200000, .i32⟩
  | 119 => ⟨S1x200000, .i32⟩
  | 120 => ⟨S200000, .i32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S50000x64, .f32⟩

abbrev hbmTy0_1 (i : Nat) : BufTy := match i % 128 with
  | 0 => ⟨S200000x1, .i32⟩
  | 1 => ⟨S200000x128, .f32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S200000x128, .f32⟩
  | 11 => ⟨S200000x256, .f32⟩
  | 12 => ⟨S200000x128, .f32⟩
  | 13 => ⟨S1x128, .f32⟩
  | 14 => ⟨S200000x128, .f32⟩
  | 15 => ⟨S200000x128, .f32⟩
  | 16 => ⟨S_, .f32⟩
  | 17 => ⟨S200000x128, .f32⟩
  | 18 => ⟨S200000x128, .f32⟩
  | 19 => ⟨S200000x1, .f32⟩
  | 20 => ⟨S1x1, .f32⟩
  | 21 => ⟨S200000x1, .f32⟩
  | 22 => ⟨S200000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call0_cst : Ref sig .tc := ⟨.hbm, 66, rfl⟩
abbrev main_call0_v0 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_18 : Ref sig .tc := ⟨.hbm, 121, rfl⟩
abbrev main_v88 : Ref sig .tc := ⟨.hbm, 122, rfl⟩
abbrev main_v89 : Ref sig .tc := ⟨.hbm, 123, rfl⟩
abbrev main_c_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_20 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_call1_cst : Ref sig .tc := ⟨.hbm, 144, rfl⟩
abbrev main_call1_v0 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S850000x1_S850000x128_0_1 : S850000x1.BroadcastsInDim S850000x128 (![0, 1] : Fin 2 → Fin S850000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  The kernel's run with its result array named.

  The program is six segments: a stretch of host operations, the first dense layer's region, a second stretch, the
  second dense layer's region, a third stretch, and the link predictor's region. The buffer contents at each segment
  boundary are a fold from the launch memory: a host stretch applies its operations, a region replaces its own arrays by
  what its write-backs leave and keeps every other buffer. Every weakly fair execution terminates, without a fault, in a
  state whose unscoped buffers hold the last boundary's contents. Read at the result buffer this names the result; read
  at an argument's buffer, which no segment writes, it gives the launch contents back.
-/
import proofs.«155383_j67190468378858_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result array at the last
    boundary's contents and every argument array as launched. -/
theorem named : θ_run defs (onTc (τ := τ) (main (F := F))) ⟨m, fun _ => 0, ρ⟩ (fun r => ∀ c : Dev nD,
      r.2.mem ((c.tc : Thread nD τ).loc main_v79) = W6 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v79 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«155383_j67190468378858_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibAffineStage.lean ====
/-
  A dense layer without a cut-off on the extended reals, in the two spellings that lower from "x @ w + b".
  For an M×K array x, a K×N weight w and a bias given as a one-row array b (shape [1, N]), the layer is
      (a, c) ↦ Σ_{k<K} x(a,k)·w(k,c) + b(0,c) .
  * affine_of_matmul: a matrix unit's product over the plain M×K by K×N dimension numbers into a zero accumulator, both
    operands first narrowed to a 16-bit float format (the identity on the extended reals), plus the bias row (shape-cast to
    its own shape) broadcast over the rows, is the layer.
  * affine_of_dotGeneral: the host's product over the same dimension numbers, plus the bias row broadcast along the axes
    [0, 1], is the layer.
  * affine_rows: the layer's value in a row depends on x only through that row, so a block of rows of x gives that block
    of the layer (for kernels that tile the rows over a grid).
  * stage_eq_max_affine: the dense stage with a cut-off at 0 is the maximum of this layer and 0, entry by entry.
  * bias rows: a [N] vector reshaped to [1, N] (a row-major shape cast) and the same vector broadcast to [1, N] along
    axis 1 are one row, entry c of the vector at (0, c).
  Over the library, the plain-product lemmas and the dense-stage lemmas only; every extent is a variable.
-/
import Idealize.ShloMosaic.PureOps.Ideal.Laws
import Idealize.ShloMosaic.Lib.ValueIdx
import Idealize.ShloMosaic.Lib.Pipeline.Value
import proofs.«155383_j67190468378858_1_alg».proof.Proof.LibPlainDot
import proofs.«155383_j67190468378858_1_alg».proof.Proof.LibDenseStage
import proofs.«155383_j67190468378858_1_alg».proof.Proof.LibHostBroadcast

noncomputable section

namespace Cert.LibAffineStage

open Idealize.ShloMosaic Idealize.ShloMosaic.ValueIdx

variable (M K N : Nat)

/-- x·w plus the bias row. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

theorem affine_apply (x : FVec Ideal ⟨2, ![M, K]⟩ .f32) (w : FVec Ideal ⟨2, ![K, N]⟩ .f32) (b : FVec Ideal ⟨2, ![1, N]⟩ .f32)
    (a : Fin M) (c : Fin N) :
    affine M K N x w b (ix2 a c) = ∑ k : Fin K, x (ix2 a k) * w (ix2 k c) + b (ix2 (0 : Fin 1) c) := rfl

/-- The layer in row a' of a block is the layer in row a of the whole, when the block's row a' is the whole's row a. -/
theorem affine_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    affine M' K N x w b (ix2 a' c) = affine M K N X w b (ix2 a c) := by
  rw [affine_apply, affine_apply]
  exact congrArg (fun s => s + b (ix2 (0 : Fin 1) c)) (Finset.sum_congr rfl fun k _ => by rw [h k])

/-- The dense stage with a cut-off at 0 is the maximum of the layer and 0. -/
theorem stage_eq_max_affine (x : FVec Ideal ⟨2, ![M, K]⟩ .f32) (w : FVec Ideal ⟨2, ![K, N]⟩ .f32) (b : FVec Ideal ⟨2, ![1, N]⟩ .f32)
    (i : (⟨2, ![M, N]⟩ : Shape).Idx) :
    Cert.LibDenseStage.stage M K N x w b i = max (affine M K N x w b i) 0 := rfl

/-- The matrix unit's spelling of the layer. -/
theorem affine_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb)
      = affine M K N x w b := by
  funext i
  obtain ⟨a, c, rfl⟩ : ∃ (a : Fin M) (c : Fin N), i = ix2 a c := ⟨i 0, i 1, eq_ix2 i⟩
  rw [addf_apply, Cert.LibPlainDot.matmul_plain, shapeCast_self, Cert.LibDenseStage.row_broadcastTo, affine_apply]
  rfl

/-- The host's spelling of the layer. -/
theorem affine_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2)) :
    addf (Host.dotGeneral (F := Ideal) (DotDims.plain M K N) none x w) (broadcastInDim ⟨2, ![M, N]⟩ ![0, 1] hb b)
      = affine M K N x w b := by
  funext i
  obtain ⟨a, c, rfl⟩ : ∃ (a : Fin M) (c : Fin N), i = ix2 a c := ⟨i 0, i 1, eq_ix2 i⟩
  rw [addf_apply, Cert.LibPlainDot.dotGeneral_plain, Cert.LibDenseStage.row_broadcastInDim, affine_apply]
  rfl

/-- A [N] vector reshaped to a [1, N] row reads, at (0, c), the vector at c. -/
theorem reshape_row {α : Type} (v : (⟨1, ![N]⟩ : Shape).Idx → α) (h : (⟨1, ![N]⟩ : Shape).ShapeCasts ⟨2, ![1, N]⟩) (u : Fin 1) (c : Fin N) :
    shapeCast ⟨2, ![1, N]⟩ v h (ix2 u c) = v (ix1 c) :=
  shapeCast_apply v h (ix2 u c) (ix1 c) (by
    rw [Shape.rowMajor_val_one, Shape.rowMajor_val_two]
    have hu : u.val = 0 := by have := u.isLt; omega
    show c.val = u.val * N + c.val
    rw [hu]; omega)

/-- The reshaped row and the broadcast row of one vector are the same [1, N] array. -/
theorem reshape_row_eq_broadcast_row {α : Type} (v : (⟨1, ![N]⟩ : Shape).Idx → α) (h : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ v h = broadcastInDim ⟨2, ![1, N]⟩ ![1] hb v := by
  funext i
  obtain ⟨u, c, rfl⟩ : ∃ (u : Fin 1) (c : Fin N), i = ix2 u c := ⟨i 0, i 1, eq_ix2 i⟩
  rw [reshape_row, Cert.LibHostBroadcast.vec_to_row]

end Cert.LibAffineStage

end
-- ==== Proof.Conv1.lean ====
/-
  Region 0 of the kernel: the first graph-convolution layer's dense part, tiled over ten blocks of 5000 rows.

  Each grid point t loads rows 5000·t … 5000·t+4999 of the aggregated features (a 50000×64 array), the whole 64×128
  weight and the whole one-row bias, and stores max(x·w + b, 0) for its 5000 rows. The value in a row depends on the
  features only through that row, so the block point t writes back is block t of ONE whole-array function of the three
  arrays as the region finds them: the dense stage with a cut-off at 0 over all 50000 rows. The ten blocks tile the
  output array, so after the region the output array IS that function.
-/
import proofs.«155383_j67190468378858_1_alg».proof.Proof.Gen.KernelIdeal.Frame
import proofs.«155383_j67190468378858_1_alg».proof.Proof.LibDenseStage
import proofs.«155383_j67190468378858_1_alg».proof.Proof.LibAffineStage
import Idealize.ShloMosaic.Lib.Pipeline.Value
import Idealize.ShloMosaic.Lib.ValueIdx
import Idealize.ShloMosaic.PureOps.Ideal.Laws

noncomputable section

namespace Cert.KernelIdeal.Conv1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed dimension numbers of the body's product are the plain 5000×64 by 64×128 ones. -/
theorem dims : dot_S5000x64_S64x128_S5000x128_1_0_0_1_n_n = DotDims.plain 5000 64 128 := rfl

/-- The body's arithmetic on a point's three loaded blocks is the dense stage with a cut-off at 0. -/
theorem body_eq (x : Vec Ideal S5000x64 .f32) (w : Vec Ideal S64x128 .f32) (b : Vec Ideal S1x128 .f32) :
    k0_pay1 (F := Ideal) x w b = Cert.LibDenseStage.stage 5000 64 128 x w b := by
  unfold k0_pay1
  rw [shapeCast_self, dims]
  exact Cert.LibDenseStage.stage_of_matmul 5000 64 128 x w b _ _ _ _

/-- The printed index maps, decided over the ten grid points: the feature and output windows move down one block of
    rows per point and stay in column block 0; the weight and the bias stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The whole-array function: the dense stage with a cut-off at 0 over all 50000 rows. -/
abbrev whole (X : S50000x64.Idx → Elt Ideal .f32) (W : S64x128.Idx → Elt Ideal .f32) (B : S1x128.Idx → Elt Ideal .f32) :
    S50000x128.Idx → Elt Ideal .f32 :=
  Cert.LibDenseStage.stage 50000 64 128 X W B

/-- What point t writes back is block t of the whole-array function of the region's three input arrays. -/
theorem flushed_eq (c : Dev nD) (t : Fin cfg0.N) :
    (dat0 V c).flushed 3 t = ((cfg0.win 3).blk t).view.read (Elt Ideal)
      (whole (V c main_v40) (V c main_arg3) (V c main_v41)) := by
  show (cfg0.win 3).cut (grid0.coords t) ((dat0 V c).after 3 t) = _
  rw [after0_3]
  unfold out0_3
  rw [View.canon_unit_zero origin]
  simp only [View.ld_unit_zero (S := S5000x64) origin, View.ld_unit_zero (S := S64x128) origin, View.ld_unit_zero (S := S1x128) origin]
  rw [body_eq]
  obtain ⟨e00, e01, e10, e11, e20, e21, e30, e31⟩ := index_facts t
  have ht : t.val < 10 := t.isLt
  -- the weight's and the bias's block at every point is the whole array
  have hw : iblk0 V c 1 t = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 128 + 1 * (y 1).val = (y 1).val; omega
  have hb : iblk0 V c 2 t = V c main_v41 := by
    funext y
    show V c main_v41 (((cfg0.win 2).blk t).view.emb y) = V c main_v41 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [hw, hb]
  funext j
  obtain ⟨p, q, rfl⟩ : ∃ (p : Fin 5000) (q : Fin 128), j = ix2 p q := ⟨j 0, j 1, eq_ix2 j⟩
  have hp : p.val < 5000 := p.isLt
  -- row p of block t is row 5000·t + p of the array
  have hrow : ((cfg0.win 3).blk t).view.emb (ix2 p q) = ix2 (⟨t.val * 5000 + p.val, by omega⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show Cert.LibDenseStage.stage 5000 64 128 (iblk0 V c 0 t) (V c main_arg3) (V c main_v41) (ix2 p q)
    = Cert.LibDenseStage.stage 50000 64 128 (V c main_v40) (V c main_arg3) (V c main_v41) (((cfg0.win 3).blk t).view.emb (ix2 p q))
  rw [hrow]
  refine Cert.LibDenseStage.stage_rows 50000 64 128 5000 (V c main_v40) (iblk0 V c 0 t) (V c main_arg3) (V c main_v41)
    ⟨t.val * 5000 + p.val, by omega⟩ p (fun k => ?_) q
  show V c main_v40 (((cfg0.win 0).blk t).view.emb (ix2 p k)) = V c main_v40 (ix2 (⟨t.val * 5000 + p.val, by omega⟩ : Fin 50000) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- An index of the output array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v42).slice (win0_3.rect t)).set ↔ _
  rw [View.set_slice_whole, Rect.mem_set_unit]
  exact Iff.rfl

/-- Row r of the output array lies in the block of point r / 5000: the ten blocks cover the array. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e00, e01, e10, e11, e20, e21, e30, e31⟩ := index_facts t
  have htv : t.val = (i 0).val / 5000 := rfl
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region its output array is the dense stage with a cut-off at 0 of the three input arrays as found. -/
theorem result (c : Dev nD) :
    (dat0 V c).arrAt 3 cfg0.N = whole (V c main_v40) (V c main_arg3) (V c main_v41) :=
  (dat0 V c).arrAt_eq_of_cover 3 (whole (V c main_v40) (V c main_arg3) (V c main_v41))
    (fun t _ => flushed_eq V c t) covered

end Cert.KernelIdeal.Conv1

end
-- ==== Proof.Conv2.lean ====
/-
  Region 1 of the kernel: the second graph-convolution layer's dense part, tiled over ten blocks of 5000 rows.

  Each grid point t loads rows 5000·t … 5000·t+4999 of the aggregated hidden features (a 50000×128 array), the whole
  128×128 weight and the whole one-row bias, and stores x·w + b for its 5000 rows, with no cut-off. The value in a row
  depends on the features only through that row, so the block point t writes back is block t of ONE whole-array function
  of the three arrays as the region finds them: the dense layer over all 50000 rows. The ten blocks tile the output
  array, so after the region the output array IS that function.
-/
import proofs.«155383_j67190468378858_1_alg».proof.Proof.Gen.KernelIdeal.Frame
import proofs.«155383_j67190468378858_1_alg».proof.Proof.LibDenseStage
import proofs.«155383_j67190468378858_1_alg».proof.Proof.LibAffineStage
import Idealize.ShloMosaic.Lib.Pipeline.Value
import Idealize.ShloMosaic.Lib.ValueIdx
import Idealize.ShloMosaic.PureOps.Ideal.Laws

noncomputable section

namespace Cert.KernelIdeal.Conv2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed dimension numbers of the body's product are the plain 5000×128 by 128×128 ones. -/
theorem dims : dot_S5000x128_S128x128_S5000x128_1_0_0_1_n_n = DotDims.plain 5000 128 128 := rfl

/-- The body's arithmetic on a point's three loaded blocks is the dense layer, without a cut-off. -/
theorem body_eq (x : Vec Ideal S5000x128 .f32) (w : Vec Ideal S128x128 .f32) (b : Vec Ideal S1x128 .f32) :
    k1_pay1 (F := Ideal) x w b = Cert.LibAffineStage.affine 5000 128 128 x w b := by
  unfold k1_pay1
  rw [shapeCast_self, dims]
  exact Cert.LibAffineStage.affine_of_matmul 5000 128 128 x w b _ _ _ _

/-- The printed index maps, decided over the ten grid points: the feature and output windows move down one block of
    rows per point and stay in column block 0; the weight and the bias stay at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array function: the dense layer over all 50000 rows. -/
abbrev whole (X : S50000x128.Idx → Elt Ideal .f32) (W : S128x128.Idx → Elt Ideal .f32) (B : S1x128.Idx → Elt Ideal .f32) :
    S50000x128.Idx → Elt Ideal .f32 :=
  Cert.LibAffineStage.affine 50000 128 128 X W B

/-- What point t writes back is block t of the whole-array function of the region's three input arrays. -/
theorem flushed_eq (c : Dev nD) (t : Fin cfg1.N) :
    (dat1 V c).flushed 3 t = ((cfg1.win 3).blk t).view.read (Elt Ideal)
      (whole (V c main_v55) (V c main_arg5) (V c main_v56)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin, View.ld_unit_zero (S := S1x128) origin]
  rw [body_eq]
  obtain ⟨e00, e01, e10, e11, e20, e21, e30, e31⟩ := index_facts t
  have ht : t.val < 10 := t.isLt
  -- the weight's and the bias's block at every point is the whole array
  have hw : iblk1 V c 1 t = V c main_arg5 := by
    funext y
    show V c main_arg5 (((cfg1.win 1).blk t).view.emb y) = V c main_arg5 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have hb : iblk1 V c 2 t = V c main_v56 := by
    funext y
    show V c main_v56 (((cfg1.win 2).blk t).view.emb y) = V c main_v56 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  rw [hw, hb]
  funext j
  obtain ⟨p, q, rfl⟩ : ∃ (p : Fin 5000) (q : Fin 128), j = ix2 p q := ⟨j 0, j 1, eq_ix2 j⟩
  have hp : p.val < 5000 := p.isLt
  -- row p of block t is row 5000·t + p of the array
  have hrow : ((cfg1.win 3).blk t).view.emb (ix2 p q) = ix2 (⟨t.val * 5000 + p.val, by omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show Cert.LibAffineStage.affine 5000 128 128 (iblk1 V c 0 t) (V c main_arg5) (V c main_v56) (ix2 p q)
    = Cert.LibAffineStage.affine 50000 128 128 (V c main_v55) (V c main_arg5) (V c main_v56) (((cfg1.win 3).blk t).view.emb (ix2 p q))
  rw [hrow]
  refine Cert.LibAffineStage.affine_rows 50000 128 128 5000 (V c main_v55) (iblk1 V c 0 t) (V c main_arg5) (V c main_v56)
    ⟨t.val * 5000 + p.val, by omega⟩ p (fun k => ?_) q
  show V c main_v55 (((cfg1.win 0).blk t).view.emb (ix2 p k)) = V c main_v55 (ix2 (⟨t.val * 5000 + p.val, by omega⟩ : Fin 50000) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- An index of the output array is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v57).slice (win1_3.rect t)).set ↔ _
  rw [View.set_slice_whole, Rect.mem_set_unit]
  exact Iff.rfl

/-- Row r of the output array lies in the block of point r / 5000: the ten blocks cover the array. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e00, e01, e10, e11, e20, e21, e30, e31⟩ := index_facts t
  have htv : t.val = (i 0).val / 5000 := rfl
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region its output array is the dense layer of the three input arrays as found. -/
theorem result (c : Dev nD) :
    (dat1 V c).arrAt 3 cfg1.N = whole (V c main_v55) (V c main_arg5) (V c main_v56) :=
  (dat1 V c).arrAt_eq_of_cover 3 (whole (V c main_v55) (V c main_arg5) (V c main_v56))
    (fun t _ => flushed_eq V c t) covered

end Cert.KernelIdeal.Conv2

end
-- ==== Proof.Predictor.lean ====
/-
  Region 2 of the kernel: the link predictor, a two-layer perceptron over 200000 query rows, tiled over forty blocks of
  5000 rows.

  Each grid point t loads rows 5000·t … 5000·t+4999 of the concatenated pair features (a 200000×256 array) and the whole
  of both weights and both one-row biases, and stores, for its 5000 rows, max(x·w₁ + b₁, 0)·w₂ + b₂ (one output column).
  Both layers act row by row, so the value in a row depends on the features only through that row, and the block point t
  writes back is block t of ONE whole-array function of the five arrays as the region finds them. The forty blocks tile the
  output array, so after the region the output array IS that function.
-/
import proofs.«155383_j67190468378858_1_alg».proof.Proof.Gen.KernelIdeal.Frame
import proofs.«155383_j67190468378858_1_alg».proof.Proof.LibDenseStage
import proofs.«155383_j67190468378858_1_alg».proof.Proof.LibAffineStage
import Idealize.ShloMosaic.Lib.Pipeline.Value
import Idealize.ShloMosaic.Lib.ValueIdx
import Idealize.ShloMosaic.PureOps.Ideal.Laws

noncomputable section

namespace Cert.KernelIdeal.Predictor

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed dimension numbers of the hidden layer's product are the plain 5000×256 by 256×128 ones. -/
theorem dims_hidden : dot_S5000x256_S256x128_S5000x128_1_0_0_1_n_n = DotDims.plain 5000 256 128 := rfl

/-- The printed dimension numbers of the output layer's product are the plain 5000×128 by 128×1 ones. -/
theorem dims_out : dot_S5000x128_S128x1_S5000x1_1_0_0_1_n_n = DotDims.plain 5000 128 1 := rfl

/-- The two layers on explicit arrays: the hidden dense stage with a cut-off at 0, then the output dense layer. -/
def twoLayer (M : Nat) (X : FVec Ideal ⟨2, ![M, 256]⟩ .f32) (W1 : FVec Ideal ⟨2, ![256, 128]⟩ .f32) (B1 : FVec Ideal ⟨2, ![1, 128]⟩ .f32)
    (W2 : FVec Ideal ⟨2, ![128, 1]⟩ .f32) (B2 : FVec Ideal ⟨2, ![1, 1]⟩ .f32) : FVec Ideal ⟨2, ![M, 1]⟩ .f32 :=
  Cert.LibAffineStage.affine M 128 1 (Cert.LibDenseStage.stage M 256 128 X W1 B1) W2 B2

/-- The body's arithmetic on a point's five loaded blocks is the two layers. -/
theorem body_eq (x : Vec Ideal S5000x256 .f32) (w1 : Vec Ideal S256x128 .f32) (b1 : Vec Ideal S1x128 .f32)
    (w2 : Vec Ideal S128x1 .f32) (b2 : Vec Ideal S1x1 .f32) :
    k2_pay1 (F := Ideal) x w1 b1 w2 b2 = twoLayer 5000 x w1 b1 w2 b2 := by
  unfold k2_pay1 twoLayer
  dsimp only
  rw [shapeCast_self (s := S5000x256), dims_hidden, dims_out, Cert.LibDenseStage.stage_of_matmul 5000 256 128 x w1 b1]
  exact Cert.LibAffineStage.affine_of_matmul 5000 128 1 (Cert.LibDenseStage.stage 5000 256 128 x w1 b1) w2 b2 _ _ _ _

/-- The two layers in row a' of a block are the two layers in row a of the whole, when the block's row a' is the whole's row a. -/
theorem twoLayer_rows (X : FVec Ideal ⟨2, ![200000, 256]⟩ .f32) (x : FVec Ideal ⟨2, ![5000, 256]⟩ .f32)
    (W1 : FVec Ideal ⟨2, ![256, 128]⟩ .f32) (B1 : FVec Ideal ⟨2, ![1, 128]⟩ .f32)
    (W2 : FVec Ideal ⟨2, ![128, 1]⟩ .f32) (B2 : FVec Ideal ⟨2, ![1, 1]⟩ .f32) (a : Fin 200000) (a' : Fin 5000)
    (h : ∀ k : Fin 256, x (ix2 a' k) = X (ix2 a k)) (q : Fin 1) :
    twoLayer 5000 x W1 B1 W2 B2 (ix2 a' q) = twoLayer 200000 X W1 B1 W2 B2 (ix2 a q) := by
  unfold twoLayer
  exact Cert.LibAffineStage.affine_rows 200000 128 1 5000 (Cert.LibDenseStage.stage 200000 256 128 X W1 B1)
    (Cert.LibDenseStage.stage 5000 256 128 x W1 B1) W2 B2 a a'
    (fun k => Cert.LibDenseStage.stage_rows 200000 256 128 5000 X x W1 B1 a a' h k) q

/-- The printed index maps, decided over the forty grid points, window by window: the feature and output windows move
    down one block of rows per point and stay in column block 0; the weights and the biases stay at block (0, 0). -/
theorem index_x : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem index_w1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem index_b1 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem index_w2 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem index_b2 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem index_out : ∀ t : Fin cfg2.N, win2_5.index t (0 : Fin 2) = t.val ∧ win2_5.index t (1 : Fin 2) = 0 :=
  (by decide +kernel : ∀ t : Fin grid2.N, win2_5.index t (0 : Fin 2) = t.val ∧ win2_5.index t (1 : Fin 2) = 0)

/-- The whole-array function: the two layers over all 200000 rows. -/
abbrev whole (X : S200000x256.Idx → Elt Ideal .f32) (W1 : S256x128.Idx → Elt Ideal .f32) (B1 : S1x128.Idx → Elt Ideal .f32)
    (W2 : S128x1.Idx → Elt Ideal .f32) (B2 : S1x1.Idx → Elt Ideal .f32) : S200000x1.Idx → Elt Ideal .f32 :=
  twoLayer 200000 X W1 B1 W2 B2

set_option maxHeartbeats 1600000 in
/-- What point t writes back is block t of the whole-array function of the region's five input arrays. -/
theorem flushed_eq (c : Dev nD) (t : Fin cfg2.N) :
    (dat2 V c).flushed 5 t = ((cfg2.win 5).blk t).view.read (Elt Ideal)
      (whole (V c main_v76) (V c main_arg7) (V c main_v77) (V c main_arg9) (V c main_v78)) := by
  show (cfg2.win 5).cut (grid2.coords t) ((dat2 V c).after 5 t) = _
  rw [after2_5]
  unfold out2_5
  rw [View.canon_unit_zero origin]
  simp only [View.ld_unit_zero (S := S5000x256) origin, View.ld_unit_zero (S := S256x128) origin, View.ld_unit_zero (S := S1x128) origin,
    View.ld_unit_zero (S := S128x1) origin, View.ld_unit_zero (S := S1x1) origin]
  rw [body_eq]
  obtain ⟨e00, e01⟩ := index_x t
  obtain ⟨e10, e11⟩ := index_w1 t
  obtain ⟨e20, e21⟩ := index_b1 t
  obtain ⟨e30, e31⟩ := index_w2 t
  obtain ⟨e40, e41⟩ := index_b2 t
  obtain ⟨e50, e51⟩ := index_out t
  have ht : t.val < 40 := t.isLt
  -- every weight's and bias's block at every point is the whole array
  have hw1 : iblk2 V c 1 t = V c main_arg7 := by
    funext y
    show V c main_arg7 (((cfg2.win 1).blk t).view.emb y) = V c main_arg7 y
    refine congrArg _ (funext fun a => Fin.ext ?_)
    match a with
    | ⟨0, _⟩ => show win2_1.index t (0 : Fin 2) * 256 + 1 * (y 0).val = (y 0).val; omega
    | ⟨1, _⟩ => show win2_1.index t (1 : Fin 2) * 128 + 1 * (y 1).val = (y 1).val; omega
  have hb1 : iblk2 V c 2 t = V c main_v77 := by
    funext y
    show V c main_v77 (((cfg2.win 2).blk t).view.emb y) = V c main_v77 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  have hw2 : iblk2 V c 3 t = V c main_arg9 := by
    funext y
    show V c main_arg9 (((cfg2.win 3).blk t).view.emb y) = V c main_arg9 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 1 + 1 * (y 1).val = (y 1).val; omega
  have hb2 : iblk2 V c 4 t = V c main_v78 := by
    funext y
    show V c main_v78 (((cfg2.win 4).blk t).view.emb y) = V c main_v78 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 1 + 1 * (y 1).val = (y 1).val; omega
  rw [hw1, hb1, hw2, hb2]
  -- a block function that agrees with a whole-array function along the block's embedding is that function read
  -- through the block
  have through : ∀ (g : Vec Ideal S5000x1 .f32) (G : S200000x1.Idx → Elt Ideal .f32),
      (∀ j : S5000x1.Idx, g j = G (((cfg2.win 5).blk t).view.emb j)) →
      (cfg2.win 5).cut (grid2.coords t) g = ((cfg2.win 5).blk t).view.read (Elt Ideal) G :=
    fun g G h => funext fun j => h j
  refine through _ _ fun j => ?_
  obtain ⟨p, q, rfl⟩ : ∃ (p : Fin 5000) (q : Fin 1), j = ix2 p q := ⟨j 0, j 1, eq_ix2 j⟩
  have hp : p.val < 5000 := p.isLt
  have hq : q.val < 1 := q.isLt
  -- row p of block t is row 5000·t + p of the array
  have hrow : ((cfg2.win 5).blk t).view.emb (ix2 p q) = ix2 (⟨t.val * 5000 + p.val, by omega⟩ : Fin 200000) q := by
    funext a; apply Fin.ext
    match a with
    | ⟨0, _⟩ => show win2_5.index t (0 : Fin 2) * 5000 + 1 * p.val = t.val * 5000 + p.val; omega
    | ⟨1, _⟩ => show win2_5.index t (1 : Fin 2) * 1 + 1 * q.val = q.val; omega
  rw [hrow]
  refine twoLayer_rows (V c main_v76) (iblk2 V c 0 t) (V c main_arg7) (V c main_v77) (V c main_arg9) (V c main_v78)
    ⟨t.val * 5000 + p.val, by omega⟩ p (fun k => ?_) q
  show V c main_v76 (((cfg2.win 0).blk t).view.emb (ix2 p k)) = V c main_v76 (ix2 (⟨t.val * 5000 + p.val, by omega⟩ : Fin 200000) k)
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 256 + 1 * k.val = k.val; omega

/-- An index of the output array is in point t's block iff each coordinate is in the block's range on its axis. -/
theorem mem_block (t : Fin cfg2.N) (i : S200000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v79).slice (win2_5.rect t)).set ↔ _
  rw [View.set_slice_whole, Rect.mem_set_unit]
  exact Iff.rfl

/-- Row r of the output array lies in the block of point r / 5000: the forty blocks cover the array. -/
theorem covered (i : S200000x1.Idx) :
    ∃ t : Fin cfg2.N, (cfg2.win 5).flush t = true ∧ i ∈ ((cfg2.win 5).blk t).view.set := by
  have hi0 : (i 0).val < 200000 := (i 0).isLt
  have hi1 : (i 1).val < 1 := (i 1).isLt
  have hN : cfg2.N = 40 := N_2
  let t : Fin cfg2.N := ⟨(i 0).val / 5000, by rw [hN]; omega⟩
  obtain ⟨e00, e01⟩ := index_x t
  obtain ⟨e10, e11⟩ := index_w1 t
  obtain ⟨e20, e21⟩ := index_b1 t
  obtain ⟨e30, e31⟩ := index_w2 t
  obtain ⟨e40, e41⟩ := index_b2 t
  obtain ⟨e50, e51⟩ := index_out t
  have htv : t.val = (i 0).val / 5000 := rfl
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 1 ≤ (i 1).val ∧ (i 1).val < win2_5.index t (1 : Fin 2) * 1 + 1; omega

/-- After the region its output array is the two layers of the five input arrays as found. -/
theorem result (c : Dev nD) :
    (dat2 V c).arrAt 5 cfg2.N = whole (V c main_v76) (V c main_arg7) (V c main_v77) (V c main_arg9) (V c main_v78) :=
  (dat2 V c).arrAt_eq_of_cover 5 (whole (V c main_v76) (V c main_arg7) (V c main_v77) (V c main_arg9) (V c main_v78))
    (fun t _ => flushed_eq V c t) covered

end Cert.KernelIdeal.Predictor

end
-- ==== Proof.Bridge.lean ====
/-
  The kernel's buffers at each segment boundary, as stages of the reference.

  Both programs compute the same chain: the edge lists with self loops appended, the symmetric normalisation of each
  edge from the node degrees, a gather / scale / scatter-add of the node features along the edges, a dense layer with a
  cut-off at 0, the same aggregation of the hidden features, a second dense layer, the two gathered halves of each
  query pair side by side, and the two-layer link predictor. The reference does every step on the host; the kernel does
  the three dense parts in tiled regions and computes the edge normalisation once where the reference computes it twice
  from the same edges. Walking the kernel's boundaries from the launch, each buffer a later segment reads holds the
  reference's stage of the launch arguments: a host stretch is the same operations on the same operands, a region's
  output array is the dense function of its input arrays, which is the host's spelling of that layer, and a bias row
  reshaped to one row is the bias broadcast to one row.
-/
import proofs.«155383_j67190468378858_1_alg».proof.Proof.Gen.KernelIdeal.Frame
import proofs.«155383_j67190468378858_1_alg».proof.Proof.Gen.ReferenceIdeal.Read
import proofs.«155383_j67190468378858_1_alg».proof.Proof.Conv1
import proofs.«155383_j67190468378858_1_alg».proof.Proof.Conv2
import proofs.«155383_j67190468378858_1_alg».proof.Proof.Predictor
import proofs.«155383_j67190468378858_1_alg».proof.Proof.LibDenseStage
import proofs.«155383_j67190468378858_1_alg».proof.Proof.LibAffineStage
import Idealize.ShloMosaic.Lib.StableHlo.Run

set_option maxRecDepth 16384

noncomputable section

namespace Cert.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The arguments, read at the boundary where a segment reads them: no segment writes an argument -/

theorem at1_arg2 : W1 m ρ c (Proc.devRef .tc main_arg2) = (m ((c : Thread nD τ).loc main_arg2)) := by
  show StableHlo.after hostOps0 (W0 m ρ c) (Proc.devRef .tc main_arg2) = _
  after_results_simp <;> rfl
theorem at2_arg2 : W2 m ρ c (Proc.devRef .tc main_arg2) = (m ((c : Thread nD τ).loc main_arg2)) :=
  (W2_of_ne m ρ c main_arg2 (by decide)).trans (at1_arg2 m ρ c)
theorem at3_arg2 : W3 m ρ c (Proc.devRef .tc main_arg2) = (m ((c : Thread nD τ).loc main_arg2)) := by
  show StableHlo.after hostOps1 (W2 m ρ c) (Proc.devRef .tc main_arg2) = _
  after_results_simp
  exact at2_arg2 m ρ c
theorem at4_arg2 : W4 m ρ c (Proc.devRef .tc main_arg2) = (m ((c : Thread nD τ).loc main_arg2)) :=
  (W4_of_ne m ρ c main_arg2 (by decide)).trans (at3_arg2 m ρ c)

theorem at1_arg3 : W1 m ρ c (Proc.devRef .tc main_arg3) = (m ((c : Thread nD τ).loc main_arg3)) := by
  show StableHlo.after hostOps0 (W0 m ρ c) (Proc.devRef .tc main_arg3) = _
  after_results_simp <;> rfl

theorem at1_arg5 : W1 m ρ c (Proc.devRef .tc main_arg5) = (m ((c : Thread nD τ).loc main_arg5)) := by
  show StableHlo.after hostOps0 (W0 m ρ c) (Proc.devRef .tc main_arg5) = _
  after_results_simp <;> rfl
theorem at2_arg5 : W2 m ρ c (Proc.devRef .tc main_arg5) = (m ((c : Thread nD τ).loc main_arg5)) :=
  (W2_of_ne m ρ c main_arg5 (by decide)).trans (at1_arg5 m ρ c)
theorem at3_arg5 : W3 m ρ c (Proc.devRef .tc main_arg5) = (m ((c : Thread nD τ).loc main_arg5)) := by
  show StableHlo.after hostOps1 (W2 m ρ c) (Proc.devRef .tc main_arg5) = _
  after_results_simp
  exact at2_arg5 m ρ c

theorem at1_arg6 : W1 m ρ c (Proc.devRef .tc main_arg6) = (m ((c : Thread nD τ).loc main_arg6)) := by
  show StableHlo.after hostOps0 (W0 m ρ c) (Proc.devRef .tc main_arg6) = _
  after_results_simp <;> rfl
theorem at2_arg6 : W2 m ρ c (Proc.devRef .tc main_arg6) = (m ((c : Thread nD τ).loc main_arg6)) :=
  (W2_of_ne m ρ c main_arg6 (by decide)).trans (at1_arg6 m ρ c)

theorem at1_arg7 : W1 m ρ c (Proc.devRef .tc main_arg7) = (m ((c : Thread nD τ).loc main_arg7)) := by
  show StableHlo.after hostOps0 (W0 m ρ c) (Proc.devRef .tc main_arg7) = _
  after_results_simp <;> rfl
theorem at2_arg7 : W2 m ρ c (Proc.devRef .tc main_arg7) = (m ((c : Thread nD τ).loc main_arg7)) :=
  (W2_of_ne m ρ c main_arg7 (by decide)).trans (at1_arg7 m ρ c)
theorem at3_arg7 : W3 m ρ c (Proc.devRef .tc main_arg7) = (m ((c : Thread nD τ).loc main_arg7)) := by
  show StableHlo.after hostOps1 (W2 m ρ c) (Proc.devRef .tc main_arg7) = _
  after_results_simp
  exact at2_arg7 m ρ c
theorem at4_arg7 : W4 m ρ c (Proc.devRef .tc main_arg7) = (m ((c : Thread nD τ).loc main_arg7)) :=
  (W4_of_ne m ρ c main_arg7 (by decide)).trans (at3_arg7 m ρ c)
theorem at5_arg7 : W5 m ρ c (Proc.devRef .tc main_arg7) = (m ((c : Thread nD τ).loc main_arg7)) := by
  show StableHlo.after hostOps2 (W4 m ρ c) (Proc.devRef .tc main_arg7) = _
  after_results_simp
  exact at4_arg7 m ρ c

theorem at1_arg8 : W1 m ρ c (Proc.devRef .tc main_arg8) = (m ((c : Thread nD τ).loc main_arg8)) := by
  show StableHlo.after hostOps0 (W0 m ρ c) (Proc.devRef .tc main_arg8) = _
  after_results_simp <;> rfl
theorem at2_arg8 : W2 m ρ c (Proc.devRef .tc main_arg8) = (m ((c : Thread nD τ).loc main_arg8)) :=
  (W2_of_ne m ρ c main_arg8 (by decide)).trans (at1_arg8 m ρ c)
theorem at3_arg8 : W3 m ρ c (Proc.devRef .tc main_arg8) = (m ((c : Thread nD τ).loc main_arg8)) := by
  show StableHlo.after hostOps1 (W2 m ρ c) (Proc.devRef .tc main_arg8) = _
  after_results_simp
  exact at2_arg8 m ρ c
theorem at4_arg8 : W4 m ρ c (Proc.devRef .tc main_arg8) = (m ((c : Thread nD τ).loc main_arg8)) :=
  (W4_of_ne m ρ c main_arg8 (by decide)).trans (at3_arg8 m ρ c)

theorem at1_arg9 : W1 m ρ c (Proc.devRef .tc main_arg9) = (m ((c : Thread nD τ).loc main_arg9)) := by
  show StableHlo.after hostOps0 (W0 m ρ c) (Proc.devRef .tc main_arg9) = _
  after_results_simp <;> rfl
theorem at2_arg9 : W2 m ρ c (Proc.devRef .tc main_arg9) = (m ((c : Thread nD τ).loc main_arg9)) :=
  (W2_of_ne m ρ c main_arg9 (by decide)).trans (at1_arg9 m ρ c)
theorem at3_arg9 : W3 m ρ c (Proc.devRef .tc main_arg9) = (m ((c : Thread nD τ).loc main_arg9)) := by
  show StableHlo.after hostOps1 (W2 m ρ c) (Proc.devRef .tc main_arg9) = _
  after_results_simp
  exact at2_arg9 m ρ c
theorem at4_arg9 : W4 m ρ c (Proc.devRef .tc main_arg9) = (m ((c : Thread nD τ).loc main_arg9)) :=
  (W4_of_ne m ρ c main_arg9 (by decide)).trans (at3_arg9 m ρ c)
theorem at5_arg9 : W5 m ρ c (Proc.devRef .tc main_arg9) = (m ((c : Thread nD τ).loc main_arg9)) := by
  show StableHlo.after hostOps2 (W4 m ρ c) (Proc.devRef .tc main_arg9) = _
  after_results_simp
  exact at4_arg9 m ρ c

theorem at1_arg10 : W1 m ρ c (Proc.devRef .tc main_arg10) = (m ((c : Thread nD τ).loc main_arg10)) := by
  show StableHlo.after hostOps0 (W0 m ρ c) (Proc.devRef .tc main_arg10) = _
  after_results_simp <;> rfl
theorem at2_arg10 : W2 m ρ c (Proc.devRef .tc main_arg10) = (m ((c : Thread nD τ).loc main_arg10)) :=
  (W2_of_ne m ρ c main_arg10 (by decide)).trans (at1_arg10 m ρ c)
theorem at3_arg10 : W3 m ρ c (Proc.devRef .tc main_arg10) = (m ((c : Thread nD τ).loc main_arg10)) := by
  show StableHlo.after hostOps1 (W2 m ρ c) (Proc.devRef .tc main_arg10) = _
  after_results_simp
  exact at2_arg10 m ρ c
theorem at4_arg10 : W4 m ρ c (Proc.devRef .tc main_arg10) = (m ((c : Thread nD τ).loc main_arg10)) :=
  (W4_of_ne m ρ c main_arg10 (by decide)).trans (at3_arg10 m ρ c)

/-! ## The reference's dimension numbers are the plain ones -/

theorem dims_conv1 : Cert.ReferenceIdeal.dot_S50000x64_S64x128_S50000x128_1_0_0_1_n_n = DotDims.plain 50000 64 128 := rfl
theorem dims_conv2 : Cert.ReferenceIdeal.dot_S50000x128_S128x128_S50000x128_1_0_0_1_n_n = DotDims.plain 50000 128 128 := rfl
theorem dims_hidden : Cert.ReferenceIdeal.dot_S200000x256_S256x128_S200000x128_1_0_0_1_n_n = DotDims.plain 200000 256 128 := rfl
theorem dims_out : Cert.ReferenceIdeal.dot_S200000x128_S128x1_S200000x1_1_0_0_1_n_n = DotDims.plain 200000 128 1 := rfl

/-! ## After the first host stretch -/

set_option maxHeartbeats 4000000 in
/-- The aggregated input features. -/
theorem at1_agg : W1 m ρ c (Proc.devRef .tc main_v40) = Cert.ReferenceIdeal.Read.val_main_v40 (F := Ideal) (m ((c : Thread nD τ).loc main_arg0)) (m ((c : Thread nD τ).loc main_arg1)) := by
  show StableHlo.after hostOps0 (W0 m ρ c) (Proc.devRef .tc main_v40) = _
  after_results_simp
  rfl

set_option maxHeartbeats 4000000 in
/-- The edge normalisation, which the kernel keeps for the second aggregation. -/
theorem at1_norm : W1 m ρ c (Proc.devRef .tc main_v27) = Cert.ReferenceIdeal.Read.val_main_v27 (F := Ideal) (m ((c : Thread nD τ).loc main_arg1)) := by
  show StableHlo.after hostOps0 (W0 m ρ c) (Proc.devRef .tc main_v27) = _
  after_results_simp
  rfl

set_option maxHeartbeats 4000000 in
/-- The edges' source nodes with the self loops appended. -/
theorem at1_row : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

set_option maxHeartbeats 4000000 in
/-- The edges' target nodes with the self loops appended. -/
theorem at1_col : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl

set_option maxHeartbeats 4000000 in
/-- The first layer's bias as one row: reshaped by the kernel, broadcast by the reference. -/
theorem at1_bias : W1 m ρ c (Proc.devRef .tc main_v41) = Cert.ReferenceIdeal.Read.val_main_v42 (F := Ideal) (m ((c : Thread nD τ).loc main_arg4)) := by
  show StableHlo.after hostOps0 (W0 m ρ c) (Proc.devRef .tc main_v41) = _
  after_results_simp
  exact Cert.LibAffineStage.reshape_row_eq_broadcast_row 128 _ _ _

/-! ## After the first region: the hidden features -/

theorem at2_hidden : W2 m ρ c (Proc.devRef .tc main_v42)
    = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) := by
  refine (show W2 m ρ c (Proc.devRef .tc main_v42) = (dat0 (V1 m ρ) c).arrAt 3 cfg0.N from W2_arr m ρ c 3).trans ?_
  rw [Cert.KernelIdeal.Conv1.result (V1 m ρ) c,
    show V1 m ρ c main_v40 = _ from at1_agg m ρ c, show V1 m ρ c main_arg3 = _ from at1_arg3 m ρ c,
    show V1 m ρ c main_v41 = _ from at1_bias m ρ c]
  unfold Cert.ReferenceIdeal.Read.val_main_v45 Cert.ReferenceIdeal.Read.val_main_v44 Cert.ReferenceIdeal.Read.val_main_v43 Cert.ReferenceIdeal.Read.val_main_v41 Cert.ReferenceIdeal.Read.val_main_call0_v0 Cert.ReferenceIdeal.Read.val_main_call0_cst
  rw [dims_conv1]
  exact (Cert.LibDenseStage.stage_of_dotGeneral 50000 64 128 _ _ _ _ _).symm

theorem at2_norm : W2 m ρ c (Proc.devRef .tc main_v27) = Cert.ReferenceIdeal.Read.val_main_v27 (F := Ideal) (m ((c : Thread nD τ).loc main_arg1)) :=
  (W2_of_ne m ρ c main_v27 (by decide)).trans (at1_norm m ρ c)
theorem at2_row : W2 m ρ c (Proc.devRef .tc main_v3) = Cert.ReferenceIdeal.Read.val_main_v3 (F := Ideal) (m ((c : Thread nD τ).loc main_arg1)) :=
  (W2_of_ne m ρ c main_v3 (by decide)).trans (at1_row m ρ c)
theorem at2_col : W2 m ρ c (Proc.devRef .tc main_v6) = Cert.ReferenceIdeal.Read.val_main_v6 (F := Ideal) (m ((c : Thread nD τ).loc main_arg1)) :=
  (W2_of_ne m ρ c main_v6 (by decide)).trans (at1_col m ρ c)

/-! ## After the second host stretch -/

set_option maxHeartbeats 4000000 in
/-- The aggregated hidden features: the same gather / scale / scatter-add, over the kept edge normalisation (the
    reference computes that again from the same edges: the same term). -/
theorem at3_agg : W3 m ρ c (Proc.devRef .tc main_v55)
    = Cert.ReferenceIdeal.Read.val_main_v79 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v55) = _
  after_results_simp
  rw [at2_hidden m ρ c, at2_norm m ρ c, at2_row m ρ c, at2_col m ρ c]
  rfl

set_option maxHeartbeats 4000000 in
/-- The second layer's bias as one row. -/
theorem at3_bias : W3 m ρ c (Proc.devRef .tc main_v56) = Cert.ReferenceIdeal.Read.val_main_v81 (F := Ideal) (m ((c : Thread nD τ).loc main_arg6)) := by
  show StableHlo.after hostOps1 (W2 m ρ c) (Proc.devRef .tc main_v56) = _
  after_results_simp
  rw [at2_arg6 m ρ c]
  exact Cert.LibAffineStage.reshape_row_eq_broadcast_row 128 _ _ _

/-! ## After the second region: the node embeddings -/

theorem at4_embed : W4 m ρ c (Proc.devRef .tc main_v57)
    = Cert.ReferenceIdeal.Read.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (show W4 m ρ c (Proc.devRef .tc main_v57) = (dat1 (V3 m ρ) c).arrAt 3 cfg1.N from W4_arr m ρ c 3).trans ?_
  rw [Cert.KernelIdeal.Conv2.result (V3 m ρ) c,
    show V3 m ρ c main_v55 = _ from at3_agg m ρ c, show V3 m ρ c main_arg5 = _ from at3_arg5 m ρ c,
    show V3 m ρ c main_v56 = _ from at3_bias m ρ c]
  unfold Cert.ReferenceIdeal.Read.val_main_v83 Cert.ReferenceIdeal.Read.val_main_v82 Cert.ReferenceIdeal.Read.val_main_v80
  rw [dims_conv2]
  exact (Cert.LibAffineStage.affine_of_dotGeneral 50000 128 128 _ _ _ _).symm

/-! ## After the third host stretch -/

set_option maxHeartbeats 4000000 in
/-- The two gathered halves of each query pair, side by side. -/
theorem at5_pairs : W5 m ρ c (Proc.devRef .tc main_v76)
    = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v76) = _
  after_results
  rw [at4_embed m ρ c, at4_arg2 m ρ c]
  rfl

set_option maxHeartbeats 4000000 in
/-- The hidden layer's bias as one row. -/
theorem at5_bias1 : W5 m ρ c (Proc.devRef .tc main_v77) = Cert.ReferenceIdeal.Read.val_main_v104 (F := Ideal) (m ((c : Thread nD τ).loc main_arg8)) := by
  show StableHlo.after hostOps2 (W4 m ρ c) (Proc.devRef .tc main_v77) = _
  after_results_simp
  rw [at4_arg8 m ρ c]
  exact Cert.LibAffineStage.reshape_row_eq_broadcast_row 128 _ _ _

set_option maxHeartbeats 4000000 in
/-- The output layer's bias as one row of one entry. -/
theorem at5_bias2 : W5 m ρ c (Proc.devRef .tc main_v78) = Cert.ReferenceIdeal.Read.val_main_v109 (F := Ideal) (m ((c : Thread nD τ).loc main_arg10)) := by
  show StableHlo.after hostOps2 (W4 m ρ c) (Proc.devRef .tc main_v78) = _
  after_results_simp
  rw [at4_arg10 m ρ c]
  exact Cert.LibAffineStage.reshape_row_eq_broadcast_row 1 _ _ _

/-! ## After the third region: the result -/

/-- The kernel's result array holds the reference's result stage of the launch arguments. -/
theorem result : W6 m ρ c (Proc.devRef .tc main_v79)
    = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (show W6 m ρ c (Proc.devRef .tc main_v79) = (dat2 (V5 m ρ) c).arrAt 5 cfg2.N from W6_arr m ρ c 5).trans ?_
  rw [Cert.KernelIdeal.Predictor.result (V5 m ρ) c,
    show V5 m ρ c main_v76 = _ from at5_pairs m ρ c, show V5 m ρ c main_arg7 = _ from at5_arg7 m ρ c,
    show V5 m ρ c main_v77 = _ from at5_bias1 m ρ c, show V5 m ρ c main_arg9 = _ from at5_arg9 m ρ c,
    show V5 m ρ c main_v78 = _ from at5_bias2 m ρ c]
  unfold Cert.ReferenceIdeal.Read.val_main_v111 Cert.ReferenceIdeal.Read.val_main_v110 Cert.ReferenceIdeal.Read.val_main_v108 Cert.ReferenceIdeal.Read.val_main_v107 Cert.ReferenceIdeal.Read.val_main_v106 Cert.ReferenceIdeal.Read.val_main_v105
    Cert.ReferenceIdeal.Read.val_main_v103 Cert.ReferenceIdeal.Read.val_main_call1_v0 Cert.ReferenceIdeal.Read.val_main_call1_cst
  rw [dims_hidden, dims_out]
  unfold Cert.KernelIdeal.Predictor.whole Cert.KernelIdeal.Predictor.twoLayer
  rw [← Cert.LibDenseStage.stage_of_dotGeneral 200000 256 128 _ _ _ _ _]
  exact (Cert.LibAffineStage.affine_of_dotGeneral 200000 128 1 _ _ _ _).symm

end Cert.Bridge

end
-- ==== Proof.lean ====
/-
  A two-layer graph convolution with symmetric normalisation, followed by a two-layer link predictor, against its
  reference on the host: equal results on the extended reals.

  Both programs append a self loop per node to the edge list, weigh each edge by deg(source)^(-1/2)·deg(target)^(-1/2),
  and twice gather the node features along the edges, scale them by the edge weights and add them up per target node;
  after each aggregation comes a dense layer x·W + b, the first cut off below at 0. For each query pair the two node
  embeddings are put side by side and pass through max(h·Wc₁ + bc₁, 0)·Wc₂ + bc₂. The kernel runs the three dense
  parts as tiled regions (blocks of 5000 rows; the operands narrowed to a 16-bit float format first, which is the
  identity on the extended reals) and everything else on the host, as the reference does. A matrix product into a zero
  accumulator and the host's product are the same finite sum entry by entry, a dense layer acts row by row so the tiles
  put together are the whole layer, and a bias reshaped to one row is the bias broadcast to one row; no other law is
  used, so the result holds for every extended-real input and the precondition is never opened.

  The three frame claims are the generated frame certificates (the reference's is its generated run with the result
  dropped); the idealization rewrote no operation, so that claim is trivial; the value claim sets the kernel's run with
  its result named (Proof/KernelRun.lean), read boundary by boundary as stages of the reference (Proof/Bridge.lean
  over Proof/Conv1.lean, Proof/Conv2.lean, Proof/Predictor.lean), beside the reference's generated run.
-/
import proofs.«155383_j67190468378858_1_alg».proof.Defs
import proofs.«155383_j67190468378858_1_alg».proof.Proof.Gen.Kernel
import proofs.«155383_j67190468378858_1_alg».proof.Proof.Gen.Kernel.Frame
import proofs.«155383_j67190468378858_1_alg».proof.Proof.Gen.KernelIdeal
import proofs.«155383_j67190468378858_1_alg».proof.Proof.Gen.KernelIdeal.Frame
import proofs.«155383_j67190468378858_1_alg».proof.Proof.Gen.ReferenceIdeal
import proofs.«155383_j67190468378858_1_alg».proof.Proof.Gen.ReferenceIdeal.Run
import proofs.«155383_j67190468378858_1_alg».proof.Proof.Gen.ReferenceIdeal.Read
import proofs.«155383_j67190468378858_1_alg».proof.Proof.Gen.Pre_finite_inputs
import proofs.«155383_j67190468378858_1_alg».proof.Proof.KernelRun
import proofs.«155383_j67190468378858_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel's last boundary
    holds the reference's result stage of the kernel's arguments, which are the reference's. -/
theorem algebraic : Cert.algebraic_KernelIdeal_ReferenceIdeal := by
  intro m ρ m' ρ' _ hagree
  refine ⟨fun c => Cert.KernelIdeal.Gen.W6 m ρ c (Proc.devRef .tc Cert.KernelIdeal.main_v79),
    Cert.KernelIdeal.Run.named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v111_eq, h0, h1, h2, h3, h4, h5, h6, h7, h8, h9, h10]
  exact (Cert.Bridge.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
